-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000x128 : Shape := ⟨3, ![1, 100000, 128]⟩
abbrev S128x128 : Shape := ⟨2, ![128, 128]⟩
abbrev S_ : Shape := ⟨0, ![]⟩

class Facts : Prop where
  bcast_S_S1x100000x128 : S_.BroadcastsInDim S1x100000x128 (![] : Fin 0 → Fin S1x100000x128.rank)
  reducesTo_S1x100000x128_S_d0_1_2 : S1x100000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S1x100000x128 .f32) (main_arg1 : FVec F S128x128 .f32) (main_arg2 : FVec F S128x128 .f32) (main_arg3 : FVec F S128x128 .f32) (main_arg4 : FVec F S128x128 .f32) (main_arg5 : FVec F S128x128 .f32) : IVec S_ 1 :=
  let main_v0 : FVec F S1x100000x128 .f32 := Host.absf main_arg0
  let main_cst : FVec F S_ .f32 := constant S_ .f32 0x7F800000#32
  let main_v1 : FVec F S1x100000x128 .f32 := broadcastInDim S1x100000x128 ![] bcast_S_S1x100000x128 main_cst
  let main_v2 : IVec S1x100000x128 1 := cmpf .olt main_v0 main_v1
  let main_c : IVec S_ 1 := constantI S_ 1 1#1
  let main_v3 : IVec S_ 1 := (fun x v => Host.reduce IntOp.andi x v reducesTo_S1x100000x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S1x100000x128 : Shape := ⟨3, ![1, 100000, 128]⟩
abbrev S128x128 : Shape := ⟨2, ![128, 128]⟩
abbrev S100000x128 : Shape := ⟨2, ![100000, 128]⟩
abbrev S10000x128 : Shape := ⟨2, ![10000, 128]⟩

abbrev nBuf : Space → Nat
  | .hbm => 8
  | .vmem => 10
  | .smem => 0
  | _ => 0

abbrev bufTy : (tb : Table) → Fin (tcTables nBuf tb) → BufTy
  | .hbm, ⟨0, _⟩ => ⟨S1x100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S100000x128, .f32⟩
  | .hbm, ⟨7, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S10000x128, .f32⟩
  | .local _ .vmem, ⟨8, _⟩ => ⟨S10000x128, .f32⟩
  | .local _ .vmem, ⟨9, _⟩ => ⟨S128x128, .f32⟩
  | _, _ => ⟨S1x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x100000x128_S100000x128 : S1x100000x128.ShapeCasts S100000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  dot_S128x128_S128x128_S128x128_0_0_1_1_n_n_wf : DotDims.WF S128x128 S128x128 S128x128 [0] [0] [1] [1] [] []
  dot_S10000x128_S128x128_S10000x128_1_1_0_0_n_n_wf : DotDims.WF S10000x128 S128x128 S10000x128 [1] [1] [0] [0] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_call0_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x100000x128 : Shape := ⟨3, ![1, 100000, 128]⟩
abbrev S128x128 : Shape := ⟨2, ![128, 128]⟩
abbrev S100000x128 : Shape := ⟨2, ![100000, 128]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S1x100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S100000x128, .f32⟩
  | .hbm, ⟨7, _⟩ => ⟨S128x128, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S100000x128, .f32⟩
  | .hbm, ⟨12, _⟩ => ⟨S100000x128, .f32⟩
  | .hbm, ⟨13, _⟩ => ⟨S128x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S100000x128, .f32⟩
  | .hbm, ⟨18, _⟩ => ⟨S100000x128, .f32⟩
  | .hbm, ⟨19, _⟩ => ⟨S128x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S128x128, .f32⟩
  | .hbm, ⟨26, _⟩ => ⟨S100000x128, .f32⟩
  | .hbm, ⟨27, _⟩ => ⟨S100000x128, .f32⟩
  | _, _ => ⟨S1x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_cst : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call2_cst : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  shapeCasts_S1x100000x128_S100000x128 : S1x100000x128.ShapeCasts S100000x128
  transposes_S128x128_S128x128_1_0 : S128x128.Transposes [1, 0] S128x128
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.GcnSpec.lean ====
/-
  The four-layer chain as ONE function of the argument arrays, over the extended reals.

  Every row of the activation array goes through the chain by itself: a layer sends a row `v` to
  `relu ((v · Wᵀ) · A)`, three times (weights `W_in`, `W_h1`, `W_h2`), and the last layer, which has no
  relu, sends the hidden row `u` to `(u · W_outᵀ) · A`. The kernel computes the last layer in the other
  association, `u · (W_outᵀ · A)`, with the 128 × 128 product `W_outᵀ · A` formed once. The two
  associations are one function as soon as every entry involved is a real number: then both are the
  double sum `∑ j k, u k * W_out j k * A j c`, summed in either order. On the extended reals the law
  needs that hypothesis (a product with an infinity does not distribute over a sum), and the hidden row is
  real because a layer of real entries is real.

  The module states the two associations row by row over an abstract finite index type, proves the law
  through ℝ, and then reads both as functions of whole arrays of the literal shapes.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-! ## Rows and matrices over a finite index type -/

section Rows

variable {ι : Type*} [Fintype ι]

/-- `v · Wᵀ`: entry `j` is `∑ k, v k * W j k` (the weight is stored [out, in]). -/
def rowMulT (v : ι → EReal) (W : ι → ι → EReal) : ι → EReal := fun j => ∑ k, v k * W j k

/-- `v · A`: entry `c` is `∑ j, v j * A j c`. -/
def rowMul (v : ι → EReal) (A : ι → ι → EReal) : ι → EReal := fun c => ∑ j, v j * A j c

/-- One hidden layer on a row: `relu ((v · Wᵀ) · A)`. -/
def reluLayer (A W : ι → ι → EReal) (v : ι → EReal) : ι → EReal :=
  fun c => max (rowMul (rowMulT v W) A c) 0

/-- The three hidden layers. -/
def hidden (A Win W1 W2 : ι → ι → EReal) (v : ι → EReal) : ι → EReal :=
  reluLayer A W2 (reluLayer A W1 (reluLayer A Win v))

/-- `Wᵀ · A`, the matrix the kernel forms once: entry `(k, c)` is `∑ j, W j k * A j c`. -/
def folded (W A : ι → ι → EReal) : ι → ι → EReal := fun k c => ∑ j, W j k * A j c

/-- The chain with the last layer as the reference associates it: `(u · W_outᵀ) · A`. -/
def chainRef (A Win W1 W2 Wout : ι → ι → EReal) (v : ι → EReal) : ι → EReal :=
  rowMul (rowMulT (hidden A Win W1 W2 v) Wout) A

/-- The chain with the last layer as the kernel associates it: `u · (W_outᵀ · A)`. -/
def chainKer (A Win W1 W2 Wout : ι → ι → EReal) (v : ι → EReal) : ι → EReal :=
  rowMul (hidden A Win W1 W2 v) (folded Wout A)

/-- An extended real that is a real number. -/
def IsReal (x : EReal) : Prop := ∃ r : ℝ, x = (r : EReal)

/-- The coercion ℝ → EReal commutes with a finite sum. -/
theorem coe_sum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- … and with `max`. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- A layer of real entries is real: it is the coercion of the same expression over ℝ. -/
theorem reluLayer_coe (A W : ι → ι → ℝ) (v : ι → ℝ) :
    reluLayer (fun j c => (A j c : EReal)) (fun j k => (W j k : EReal)) (fun k => (v k : EReal))
      = fun c => ((max (∑ j, (∑ k, v k * W j k) * A j c) 0 : ℝ) : EReal) := by
  funext c
  simp only [reluLayer, rowMul, rowMulT, coe_max, coe_sum, EReal.coe_mul, EReal.coe_zero]

/-- THE LAW, for real entries: `(u · Wᵀ) · A = u · (Wᵀ · A)`. Both sides are the coercion of a double sum over ℝ,
    where the sums exchange and the products re-associate. -/
theorem tail_coe (u : ι → ℝ) (W A : ι → ι → ℝ) :
    rowMul (rowMulT (fun k => (u k : EReal)) (fun j k => (W j k : EReal))) (fun j c => (A j c : EReal))
      = rowMul (fun k => (u k : EReal)) (folded (fun j k => (W j k : EReal)) (fun j c => (A j c : EReal))) := by
  funext c
  have hL : rowMul (rowMulT (fun k => (u k : EReal)) (fun j k => (W j k : EReal))) (fun j c => (A j c : EReal)) c
      = ((∑ j, (∑ k, u k * W j k) * A j c : ℝ) : EReal) := by
    simp only [rowMul, rowMulT, coe_sum, EReal.coe_mul]
  have hR : rowMul (fun k => (u k : EReal)) (folded (fun j k => (W j k : EReal)) (fun j c => (A j c : EReal))) c
      = ((∑ k, u k * ∑ j, W j k * A j c : ℝ) : EReal) := by
    simp only [rowMul, folded, coe_sum, EReal.coe_mul]
  rw [hL, hR]
  congr 1
  simp only [Finset.sum_mul, Finset.mul_sum]
  rw [Finset.sum_comm]
  exact Finset.sum_congr rfl fun k _ => Finset.sum_congr rfl fun j _ => by ring

/-- So on real entries the two associations of the chain are one function. -/
theorem chain_eq {A Win W1 W2 Wout : ι → ι → EReal} {v : ι → EReal}
    (hA : ∀ j c, IsReal (A j c)) (hWin : ∀ j k, IsReal (Win j k)) (hW1 : ∀ j k, IsReal (W1 j k))
    (hW2 : ∀ j k, IsReal (W2 j k)) (hWout : ∀ j k, IsReal (Wout j k)) (hv : ∀ k, IsReal (v k)) :
    chainRef A Win W1 W2 Wout v = chainKer A Win W1 W2 Wout v := by
  choose A' hA' using hA
  choose Win' hWin' using hWin
  choose W1' hW1' using hW1
  choose W2' hW2' using hW2
  choose Wout' hWout' using hWout
  choose v' hv' using hv
  obtain rfl : A = fun j c => (A' j c : EReal) := funext fun j => funext fun c => hA' j c
  obtain rfl : Win = fun j k => (Win' j k : EReal) := funext fun j => funext fun k => hWin' j k
  obtain rfl : W1 = fun j k => (W1' j k : EReal) := funext fun j => funext fun k => hW1' j k
  obtain rfl : W2 = fun j k => (W2' j k : EReal) := funext fun j => funext fun k => hW2' j k
  obtain rfl : Wout = fun j k => (Wout' j k : EReal) := funext fun j => funext fun k => hWout' j k
  obtain rfl : v = fun k => (v' k : EReal) := funext hv'
  unfold chainRef chainKer hidden
  rw [reluLayer_coe, reluLayer_coe, reluLayer_coe]
  exact tail_coe _ _ _

end Rows

/-! ## Whole arrays of the literal shapes -/

/-- A rank-2 array as the matrix of its coordinates: `mat X a b` is `X` at row `a`, column `b`. -/
def mat {n0 n1 : Nat} (X : (⟨2, ![n0, n1]⟩ : Shape).Idx → EReal) : Fin n0 → Fin n1 → EReal :=
  fun a b => X (ix2 a b)

/-- The result array as the reference associates the last layer: row `i 0` of the activations `h` through the chain,
    read at column `i 1`. -/
def arrRef (A Win W1 W2 Wout : (⟨2, ![128, 128]⟩ : Shape).Idx → EReal) (h : (⟨2, ![100000, 128]⟩ : Shape).Idx → EReal) :
    (⟨2, ![100000, 128]⟩ : Shape).Idx → EReal :=
  fun i => chainRef (mat A) (mat Win) (mat W1) (mat W2) (mat Wout) (mat h (i 0)) (i 1)

/-- The result array as the kernel associates the last layer. -/
def arrKer (A Win W1 W2 Wout : (⟨2, ![128, 128]⟩ : Shape).Idx → EReal) (h : (⟨2, ![100000, 128]⟩ : Shape).Idx → EReal) :
    (⟨2, ![100000, 128]⟩ : Shape).Idx → EReal :=
  fun i => chainKer (mat A) (mat Win) (mat W1) (mat W2) (mat Wout) (mat h (i 0)) (i 1)

/-- On arrays of real entries the two are one array. -/
theorem arrRef_eq_arrKer {A Win W1 W2 Wout : (⟨2, ![128, 128]⟩ : Shape).Idx → EReal}
    {h : (⟨2, ![100000, 128]⟩ : Shape).Idx → EReal}
    (hA : ∀ i, IsReal (A i)) (hWin : ∀ i, IsReal (Win i)) (hW1 : ∀ i, IsReal (W1 i)) (hW2 : ∀ i, IsReal (W2 i))
    (hWout : ∀ i, IsReal (Wout i)) (hh : ∀ i, IsReal (h i)) :
    arrRef A Win W1 W2 Wout h = arrKer A Win W1 W2 Wout h :=
  funext fun i => congrFun (chain_eq (fun _ _ => hA _) (fun _ _ => hWin _) (fun _ _ => hW1 _) (fun _ _ => hW2 _)
    (fun _ _ => hWout _) (fun _ => hh _)) (i 1)

end Cert.GcnSpec

end
-- ==== Proof.FiniteInputs.lean ====
/-
  From the precondition to "every entry of every argument array is a real number".

  The precondition is the conjunction, over the six float arguments, of "every entry x of the array has
  |x| < +∞". Over the extended reals |x| is max x (-x), and +∞ is the top element, so the entry fact says
  that x is neither the top nor the bottom element: x is (the coercion of) a real number. The conjunction
  is a chain of 1-bit "and"s, each conjunct a reduction by "and" of the 1-bit array of comparisons over all
  axes; such a reduction is the word 1 exactly when every comparison is.
-/
import proofs.«168859_g58128087384148_cont_9to1_m_400_15_alg».proof.Pre_finite_inputs
import proofs.«168859_g58128087384148_cont_9to1_m_400_15_alg».proof.Proof.GcnSpec
import Idealize.ShloMosaic.PureOps.Ideal
import Idealize.ShloMosaic.Lib.ReduceAll
import Idealize.ShloMosaic.Lib.ValueIdx

noncomputable section

namespace Cert.FiniteInputs

open Idealize.ShloMosaic

/-! ## One entry -/

/-- The 32-bit pattern 0x7F800000 (sign 0, exponent all ones, fraction 0) denotes +∞, the top extended real. -/
theorem inf_pattern : Ideal.ofBits .f32 0x7F800000#32 = (⊤ : EReal) := by
  simp [Ideal.ofBits, Ideal.ieee]

/-- An extended real x with |x| = max x (-x) strictly below +∞ is a real number: x is not +∞ (then
    max x (-x) = +∞), not -∞ (then -x = +∞), so it is the coercion of a real. -/
theorem isReal_of_abs_lt_top (x : EReal) (h : max x (-x) < ⊤) : Cert.GcnSpec.IsReal x := by
  induction x using EReal.rec with
  | bot =>
    -- -(-∞) = +∞, so the maximum is +∞
    rw [EReal.neg_bot, max_eq_right bot_le] at h
    exact absurd h (lt_irrefl _)
  | coe r => exact ⟨r, rfl⟩
  | top =>
    rw [max_eq_left le_top] at h
    exact absurd h (lt_irrefl _)

/-- A 1-bit word made from a Boolean is 1 exactly when the Boolean is true. -/
theorem ofBool_eq_one (b : Bool) : BitVec.ofBool b = 1#1 ↔ b = true := by cases b <;> decide

/-- The comparison "|x| < +∞", as the precondition spells it on one entry, answering the word 1 says that
    x is a real number. -/
theorem isReal_of_cmp (x : Ideal .f32)
    (h : FloatOps.cmpf .olt (FloatOps.hostAbsf x) (FloatOps.ofBits (F := Ideal) .f32 0x7F800000#32) = 1#1) :
    Cert.GcnSpec.IsReal x := by
  -- the comparison is the order's "<" on extended reals, |x| is max x (-x), the constant is +∞
  change Ideal.cmp .olt (max (x : EReal) (-(x : EReal))) (Ideal.ofBits .f32 0x7F800000#32) = 1#1 at h
  rw [inf_pattern] at h
  unfold Ideal.cmp at h
  rw [ofBool_eq_one, decide_eq_true_eq] at h
  exact isReal_of_abs_lt_top x h

/-! ## One array -/

/-- The shape of a scalar has exactly one index (there is no axis to give a coordinate on). -/
instance scalar_idx_subsingleton : Subsingleton Cert.Pre_finite_inputs.S_.Idx := ⟨fun a b => funext fun d => d.elim0⟩

/-- One conjunct of the precondition, for an array x of any shape: if the reduction by "and", over all axes,
    of the array of comparisons "|x i| < +∞" is the word 1, then every entry of x is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant Cert.Pre_finite_inputs.S_ .f32 0x7F800000#32)))
          (constantI Cert.Pre_finite_inputs.S_ 1 1#1) hr hu j = 1#1) :
    ∀ i, Cert.GcnSpec.IsReal (x i) := fun i =>
  -- a reduction by "and" into one index that is 1 had a 1 at every index; entry i of the comparison array
  -- is the comparison of entry i of x with the broadcast constant
  isReal_of_cmp (x i) (Host.reduce_andi_all _ _ hr hu j e i)

/-! ## The six arrays -/

/-- The precondition read back: if it answers true on the six argument arrays, then every entry of every one of
    them is a real number. -/
theorem real_of_pre [Cert.Pre_finite_inputs.Facts]
    (x0 : FVec Ideal Cert.Pre_finite_inputs.S1x100000x128 .f32)
    (x1 x2 x3 x4 x5 : FVec Ideal Cert.Pre_finite_inputs.S128x128 .f32)
    (h : Cert.Pre_finite_inputs.fn (F := Ideal) x0 x1 x2 x3 x4 x5 = fun _ => 1#1) :
    (∀ i, Cert.GcnSpec.IsReal (x0 i)) ∧ (∀ i, Cert.GcnSpec.IsReal (x1 i)) ∧ (∀ i, Cert.GcnSpec.IsReal (x2 i))
      ∧ (∀ i, Cert.GcnSpec.IsReal (x3 i)) ∧ (∀ i, Cert.GcnSpec.IsReal (x4 i)) ∧ (∀ i, Cert.GcnSpec.IsReal (x5 i)) := by
  -- the result array has one index; read the hypothesis there
  have e := congrFun h ValueIdx.ix0
  dsimp only [Cert.Pre_finite_inputs.fn, Cert.Pre_finite_inputs.fn_part1, andi] at e
  -- the chain of "and"s is ((((c0 ∧ c1) ∧ c2) ∧ c3) ∧ c4) ∧ c5
  rw [IntOp.andi_eq_one, IntOp.andi_eq_one, IntOp.andi_eq_one, IntOp.andi_eq_one, IntOp.andi_eq_one] at e
  obtain ⟨⟨⟨⟨⟨e0, e1⟩, e2⟩, e3⟩, e4⟩, e5⟩ := e
  exact ⟨real_of_all x0 _ _ _ _ e0, real_of_all x1 _ _ _ _ e1, real_of_all x2 _ _ _ _ e2,
    real_of_all x3 _ _ _ _ e3, real_of_all x4 _ _ _ _ e4, real_of_all x5 _ _ _ _ e5⟩

end Cert.FiniteInputs

end
-- ==== Proof.RefIsChain.lean ====
/-
  The reference program is the chain of the specification.

  The reference is a straight line of array operations on the activation array `h` (100000 × 128), the adjacency `A`
  and four weights (128 × 128, stored [out, in]). A layer transposes its weight `W`, takes the matrix product
  `h · Wᵀ`, then the product of that with `A`, and (in the first three layers) the maximum with a broadcast zero.
  Each operation is read at an index from its operands: a matrix product as the sum over the contracted coordinate
  `k : Fin 128` of the products of the two entries, a transpose by exchanging the two coordinates, the maximum entry
  by entry.

  The proof follows the program. First the index functions of those reads are identified with plain coordinate
  pairs. Then every stage is stated ROW BY ROW: row `a` of a stage is one row operation of the specification
  (`rowMulT`, `rowMul`, or the maximum with zero) applied to row `a` of the stage before it. Three stages make a
  `reluLayer`; the three layers make `hidden`; the last two products are the tail of `chainRef`; and an array is
  determined by its rows.
-/
import proofs.«168859_g58128087384148_cont_9to1_m_400_15_alg».proof.Proof.Gen.ReferenceIdeal.Read
import proofs.«168859_g58128087384148_cont_9to1_m_400_15_alg».proof.Proof.GcnSpec
import Idealize.ShloMosaic.Lib.ValueIdx
import Idealize.ShloMosaic.PureOps.Ideal.Laws

noncomputable section

namespace Cert.RefChain

open Idealize.ShloMosaic Idealize.ShloMosaic.ValueIdx Cert.ReferenceIdeal Cert.ReferenceIdeal.Read Cert.GcnSpec

variable (x0 : (⟨S1x100000x128, .f32⟩ : BufTy).Contents (Elt Ideal))
  (x1 x2 x3 x4 x5 : (⟨S128x128, .f32⟩ : BufTy).Contents (Elt Ideal))

/-! ## Layer 1: `relu ((h · W_inᵀ) · A)` -/

/-- In the product `h · W_inᵀ` read at `(a, b)`, the left factor is read at `(a, k)`. -/
theorem lidx_v2 (a : Fin 100000) (b k : Fin 128) : lidx_main_v2 (ix2 a b) k = ix2 a k :=
  funext fun d => Fin.ext (by match d with | ⟨0, _⟩ => rfl | ⟨1, _⟩ => rfl)

/-- … and the right factor at `(k, b)`. -/
theorem ridx_v2 (a : Fin 100000) (b k : Fin 128) : ridx_main_v2 (ix2 a b) k = ix2 k b :=
  funext fun d => Fin.ext (by match d with | ⟨0, _⟩ => rfl | ⟨1, _⟩ => rfl)

/-- The transpose reads entry `(k, j)` at `(j, k)`. -/
theorem idx_v1 (k j : Fin 128) : idx_main_v1 (ix2 k j) = ix2 j k :=
  funext fun d => Fin.ext (by match d with | ⟨0, _⟩ => rfl | ⟨1, _⟩ => rfl)

/-- Entry `(k, j)` of `W_inᵀ` is entry `(j, k)` of `W_in`. -/
theorem v1_read (k j : Fin 128) : val_main_v1 (F := Ideal) x2 (ix2 k j) = x2 (ix2 j k) := by
  rw [val_main_v1_apply, idx_v1]

/-- Row `a` of `h · W_inᵀ` is row `a` of `h` times `W_inᵀ`: entry `b` is `∑ k, h a k * W_in b k`. -/
theorem row_v2 (a : Fin 100000) :
    mat (val_main_v2 (F := Ideal) x0 x2) a = rowMulT (mat (val_main_v0 (F := Ideal) x0) a) (mat x2) := by
  funext b
  show val_main_v2 (F := Ideal) x0 x2 (ix2 a b)
    = ∑ k : Fin 128, val_main_v0 (F := Ideal) x0 (ix2 a k) * x2 (ix2 b k)
  rw [val_main_v2_apply]
  refine Finset.sum_congr rfl fun k _ => ?_
  rw [lidx_v2, ridx_v2, v1_read]

/-- In the product `(h · W_inᵀ) · A` read at `(a, b)`, the left factor is read at `(a, k)`. -/
theorem lidx_v3 (a : Fin 100000) (b k : Fin 128) : lidx_main_v3 (ix2 a b) k = ix2 a k :=
  funext fun d => Fin.ext (by match d with | ⟨0, _⟩ => rfl | ⟨1, _⟩ => rfl)

/-- … and the right factor at `(k, b)`. -/
theorem ridx_v3 (a : Fin 100000) (b k : Fin 128) : ridx_main_v3 (ix2 a b) k = ix2 k b :=
  funext fun d => Fin.ext (by match d with | ⟨0, _⟩ => rfl | ⟨1, _⟩ => rfl)

/-- Row `a` of `(h · W_inᵀ) · A` is row `a` of `h · W_inᵀ` times `A`: entry `b` is `∑ k, (h · W_inᵀ) a k * A k b`. -/
theorem row_v3 (a : Fin 100000) :
    mat (val_main_v3 (F := Ideal) x0 x1 x2) a = rowMul (mat (val_main_v2 (F := Ideal) x0 x2) a) (mat x1) := by
  funext b
  show val_main_v3 (F := Ideal) x0 x1 x2 (ix2 a b)
    = ∑ k : Fin 128, val_main_v2 (F := Ideal) x0 x2 (ix2 a k) * x1 (ix2 k b)
  rw [val_main_v3_apply]
  refine Finset.sum_congr rfl fun k _ => ?_
  rw [lidx_v3, ridx_v3]

/-- The constant the first `relu` compares with is the number zero at every index: it is the broadcast of the
    rank-0 array holding the all-zero bit pattern, which is `0`. -/
theorem zero_call0 (i : S100000x128.Idx) : val_main_call0_v0 (F := Ideal) i = (0 : EReal) := by
  rw [val_main_call0_v0_apply, val_main_call0_cst_apply, Ideal.ofBits_def, Ideal.ofBits_zero_f32]

/-- Row `a` after the first `relu`: every entry is the maximum of the entry before and zero. -/
theorem row_v4 (a : Fin 100000) :
    mat (val_main_v4 (F := Ideal) x0 x1 x2) a = fun c => max (mat (val_main_v3 (F := Ideal) x0 x1 x2) a c) 0 := by
  funext b
  show val_main_v4 (F := Ideal) x0 x1 x2 (ix2 a b) = max (val_main_v3 (F := Ideal) x0 x1 x2 (ix2 a b)) 0
  rw [val_main_v4_apply, Ideal.maximumf_def, zero_call0]

/-- Row `a` after layer 1 is `reluLayer A W_in` of row `a` of `h`. -/
theorem layer1 (a : Fin 100000) :
    mat (val_main_v4 (F := Ideal) x0 x1 x2) a
      = reluLayer (mat x1) (mat x2) (mat (val_main_v0 (F := Ideal) x0) a) := by
  rw [row_v4, row_v3, row_v2]
  rfl

/-! ## Layer 2: `relu ((h₁ · W_h1ᵀ) · A)`, with `h₁` the activations after layer 1 -/

/-- In the product `h₁ · W_h1ᵀ` read at `(a, b)`, the left factor is read at `(a, k)`. -/
theorem lidx_v6 (a : Fin 100000) (b k : Fin 128) : lidx_main_v6 (ix2 a b) k = ix2 a k :=
  funext fun d => Fin.ext (by match d with | ⟨0, _⟩ => rfl | ⟨1, _⟩ => rfl)

/-- … and the right factor at `(k, b)`. -/
theorem ridx_v6 (a : Fin 100000) (b k : Fin 128) : ridx_main_v6 (ix2 a b) k = ix2 k b :=
  funext fun d => Fin.ext (by match d with | ⟨0, _⟩ => rfl | ⟨1, _⟩ => rfl)

/-- The transpose reads entry `(k, j)` at `(j, k)`. -/
theorem idx_v5 (k j : Fin 128) : idx_main_v5 (ix2 k j) = ix2 j k :=
  funext fun d => Fin.ext (by match d with | ⟨0, _⟩ => rfl | ⟨1, _⟩ => rfl)

/-- Entry `(k, j)` of `W_h1ᵀ` is entry `(j, k)` of `W_h1`. -/
theorem v5_read (k j : Fin 128) : val_main_v5 (F := Ideal) x3 (ix2 k j) = x3 (ix2 j k) := by
  rw [val_main_v5_apply, idx_v5]

/-- Row `a` of `h₁ · W_h1ᵀ` is row `a` of `h₁` times `W_h1ᵀ`: entry `b` is `∑ k, h₁ a k * W_h1 b k`. -/
theorem row_v6 (a : Fin 100000) :
    mat (val_main_v6 (F := Ideal) x0 x1 x2 x3) a = rowMulT (mat (val_main_v4 (F := Ideal) x0 x1 x2) a) (mat x3) := by
  funext b
  show val_main_v6 (F := Ideal) x0 x1 x2 x3 (ix2 a b)
    = ∑ k : Fin 128, val_main_v4 (F := Ideal) x0 x1 x2 (ix2 a k) * x3 (ix2 b k)
  rw [val_main_v6_apply]
  refine Finset.sum_congr rfl fun k _ => ?_
  rw [lidx_v6, ridx_v6, v5_read]

/-- In the product `(h₁ · W_h1ᵀ) · A` read at `(a, b)`, the left factor is read at `(a, k)`. -/
theorem lidx_v7 (a : Fin 100000) (b k : Fin 128) : lidx_main_v7 (ix2 a b) k = ix2 a k :=
  funext fun d => Fin.ext (by match d with | ⟨0, _⟩ => rfl | ⟨1, _⟩ => rfl)

/-- … and the right factor at `(k, b)`. -/
theorem ridx_v7 (a : Fin 100000) (b k : Fin 128) : ridx_main_v7 (ix2 a b) k = ix2 k b :=
  funext fun d => Fin.ext (by match d with | ⟨0, _⟩ => rfl | ⟨1, _⟩ => rfl)

/-- Row `a` of `(h₁ · W_h1ᵀ) · A` is row `a` of `h₁ · W_h1ᵀ` times `A`: entry `b` is `∑ k, (h₁ · W_h1ᵀ) a k * A k b`. -/
theorem row_v7 (a : Fin 100000) :
    mat (val_main_v7 (F := Ideal) x0 x1 x2 x3) a = rowMul (mat (val_main_v6 (F := Ideal) x0 x1 x2 x3) a) (mat x1) := by
  funext b
  show val_main_v7 (F := Ideal) x0 x1 x2 x3 (ix2 a b)
    = ∑ k : Fin 128, val_main_v6 (F := Ideal) x0 x1 x2 x3 (ix2 a k) * x1 (ix2 k b)
  rw [val_main_v7_apply]
  refine Finset.sum_congr rfl fun k _ => ?_
  rw [lidx_v7, ridx_v7]

/-- The constant this layer's `relu` compares with is again the number zero at every index. -/
theorem zero_call1 (i : S100000x128.Idx) : val_main_call1_v0 (F := Ideal) i = (0 : EReal) := by
  rw [val_main_call1_v0_apply, val_main_call1_cst_apply, Ideal.ofBits_def, Ideal.ofBits_zero_f32]

/-- Row `a` after this layer's `relu`: every entry is the maximum of the entry before and zero. -/
theorem row_v8 (a : Fin 100000) :
    mat (val_main_v8 (F := Ideal) x0 x1 x2 x3) a = fun c => max (mat (val_main_v7 (F := Ideal) x0 x1 x2 x3) a c) 0 := by
  funext b
  show val_main_v8 (F := Ideal) x0 x1 x2 x3 (ix2 a b) = max (val_main_v7 (F := Ideal) x0 x1 x2 x3 (ix2 a b)) 0
  rw [val_main_v8_apply, Ideal.maximumf_def, zero_call1]

/-- Row `a` after layer 2 is `reluLayer A W_h1` of row `a` after layer 1. -/
theorem layer2 (a : Fin 100000) :
    mat (val_main_v8 (F := Ideal) x0 x1 x2 x3) a
      = reluLayer (mat x1) (mat x3) (mat (val_main_v4 (F := Ideal) x0 x1 x2) a) := by
  rw [row_v8, row_v7, row_v6]
  rfl

/-! ## Layer 3: `relu ((h₂ · W_h2ᵀ) · A)`, with `h₂` the activations after layer 2 -/

/-- In the product `h₂ · W_h2ᵀ` read at `(a, b)`, the left factor is read at `(a, k)`. -/
theorem lidx_v10 (a : Fin 100000) (b k : Fin 128) : lidx_main_v10 (ix2 a b) k = ix2 a k :=
  funext fun d => Fin.ext (by match d with | ⟨0, _⟩ => rfl | ⟨1, _⟩ => rfl)

/-- … and the right factor at `(k, b)`. -/
theorem ridx_v10 (a : Fin 100000) (b k : Fin 128) : ridx_main_v10 (ix2 a b) k = ix2 k b :=
  funext fun d => Fin.ext (by match d with | ⟨0, _⟩ => rfl | ⟨1, _⟩ => rfl)

/-- The transpose reads entry `(k, j)` at `(j, k)`. -/
theorem idx_v9 (k j : Fin 128) : idx_main_v9 (ix2 k j) = ix2 j k :=
  funext fun d => Fin.ext (by match d with | ⟨0, _⟩ => rfl | ⟨1, _⟩ => rfl)

/-- Entry `(k, j)` of `W_h2ᵀ` is entry `(j, k)` of `W_h2`. -/
theorem v9_read (k j : Fin 128) : val_main_v9 (F := Ideal) x4 (ix2 k j) = x4 (ix2 j k) := by
  rw [val_main_v9_apply, idx_v9]

/-- Row `a` of `h₂ · W_h2ᵀ` is row `a` of `h₂` times `W_h2ᵀ`: entry `b` is `∑ k, h₂ a k * W_h2 b k`. -/
theorem row_v10 (a : Fin 100000) :
    mat (val_main_v10 (F := Ideal) x0 x1 x2 x3 x4) a = rowMulT (mat (val_main_v8 (F := Ideal) x0 x1 x2 x3) a) (mat x4) := by
  funext b
  show val_main_v10 (F := Ideal) x0 x1 x2 x3 x4 (ix2 a b)
    = ∑ k : Fin 128, val_main_v8 (F := Ideal) x0 x1 x2 x3 (ix2 a k) * x4 (ix2 b k)
  rw [val_main_v10_apply]
  refine Finset.sum_congr rfl fun k _ => ?_
  rw [lidx_v10, ridx_v10, v9_read]

/-- In the product `(h₂ · W_h2ᵀ) · A` read at `(a, b)`, the left factor is read at `(a, k)`. -/
theorem lidx_v11 (a : Fin 100000) (b k : Fin 128) : lidx_main_v11 (ix2 a b) k = ix2 a k :=
  funext fun d => Fin.ext (by match d with | ⟨0, _⟩ => rfl | ⟨1, _⟩ => rfl)

/-- … and the right factor at `(k, b)`. -/
theorem ridx_v11 (a : Fin 100000) (b k : Fin 128) : ridx_main_v11 (ix2 a b) k = ix2 k b :=
  funext fun d => Fin.ext (by match d with | ⟨0, _⟩ => rfl | ⟨1, _⟩ => rfl)

/-- Row `a` of `(h₂ · W_h2ᵀ) · A` is row `a` of `h₂ · W_h2ᵀ` times `A`: entry `b` is `∑ k, (h₂ · W_h2ᵀ) a k * A k b`. -/
theorem row_v11 (a : Fin 100000) :
    mat (val_main_v11 (F := Ideal) x0 x1 x2 x3 x4) a = rowMul (mat (val_main_v10 (F := Ideal) x0 x1 x2 x3 x4) a) (mat x1) := by
  funext b
  show val_main_v11 (F := Ideal) x0 x1 x2 x3 x4 (ix2 a b)
    = ∑ k : Fin 128, val_main_v10 (F := Ideal) x0 x1 x2 x3 x4 (ix2 a k) * x1 (ix2 k b)
  rw [val_main_v11_apply]
  refine Finset.sum_congr rfl fun k _ => ?_
  rw [lidx_v11, ridx_v11]

/-- The constant this layer's `relu` compares with is again the number zero at every index. -/
theorem zero_call2 (i : S100000x128.Idx) : val_main_call2_v0 (F := Ideal) i = (0 : EReal) := by
  rw [val_main_call2_v0_apply, val_main_call2_cst_apply, Ideal.ofBits_def, Ideal.ofBits_zero_f32]

/-- Row `a` after this layer's `relu`: every entry is the maximum of the entry before and zero. -/
theorem row_v12 (a : Fin 100000) :
    mat (val_main_v12 (F := Ideal) x0 x1 x2 x3 x4) a = fun c => max (mat (val_main_v11 (F := Ideal) x0 x1 x2 x3 x4) a c) 0 := by
  funext b
  show val_main_v12 (F := Ideal) x0 x1 x2 x3 x4 (ix2 a b) = max (val_main_v11 (F := Ideal) x0 x1 x2 x3 x4 (ix2 a b)) 0
  rw [val_main_v12_apply, Ideal.maximumf_def, zero_call2]

/-- Row `a` after layer 3 is `reluLayer A W_h2` of row `a` after layer 2. -/
theorem layer3 (a : Fin 100000) :
    mat (val_main_v12 (F := Ideal) x0 x1 x2 x3 x4) a
      = reluLayer (mat x1) (mat x4) (mat (val_main_v8 (F := Ideal) x0 x1 x2 x3) a) := by
  rw [row_v12, row_v11, row_v10]
  rfl

/-! ## The last layer: `(u · W_outᵀ) · A`, with `u` the activations after layer 3 and no `relu` -/

/-- In the product `u · W_outᵀ` read at `(a, b)`, the left factor is read at `(a, k)`. -/
theorem lidx_v14 (a : Fin 100000) (b k : Fin 128) : lidx_main_v14 (ix2 a b) k = ix2 a k :=
  funext fun d => Fin.ext (by match d with | ⟨0, _⟩ => rfl | ⟨1, _⟩ => rfl)

/-- … and the right factor at `(k, b)`. -/
theorem ridx_v14 (a : Fin 100000) (b k : Fin 128) : ridx_main_v14 (ix2 a b) k = ix2 k b :=
  funext fun d => Fin.ext (by match d with | ⟨0, _⟩ => rfl | ⟨1, _⟩ => rfl)

/-- The transpose reads entry `(k, j)` at `(j, k)`. -/
theorem idx_v13 (k j : Fin 128) : idx_main_v13 (ix2 k j) = ix2 j k :=
  funext fun d => Fin.ext (by match d with | ⟨0, _⟩ => rfl | ⟨1, _⟩ => rfl)

/-- Entry `(k, j)` of `W_outᵀ` is entry `(j, k)` of `W_out`. -/
theorem v13_read (k j : Fin 128) : val_main_v13 (F := Ideal) x5 (ix2 k j) = x5 (ix2 j k) := by
  rw [val_main_v13_apply, idx_v13]

/-- Row `a` of `u · W_outᵀ` is row `a` of `u` times `W_outᵀ`: entry `b` is `∑ k, u a k * W_out b k`. -/
theorem row_v14 (a : Fin 100000) :
    mat (val_main_v14 (F := Ideal) x0 x1 x2 x3 x4 x5) a
      = rowMulT (mat (val_main_v12 (F := Ideal) x0 x1 x2 x3 x4) a) (mat x5) := by
  funext b
  show val_main_v14 (F := Ideal) x0 x1 x2 x3 x4 x5 (ix2 a b)
    = ∑ k : Fin 128, val_main_v12 (F := Ideal) x0 x1 x2 x3 x4 (ix2 a k) * x5 (ix2 b k)
  rw [val_main_v14_apply]
  refine Finset.sum_congr rfl fun k _ => ?_
  rw [lidx_v14, ridx_v14, v13_read]

/-- In the product `(u · W_outᵀ) · A` read at `(a, b)`, the left factor is read at `(a, k)`. -/
theorem lidx_v15 (a : Fin 100000) (b k : Fin 128) : lidx_main_v15 (ix2 a b) k = ix2 a k :=
  funext fun d => Fin.ext (by match d with | ⟨0, _⟩ => rfl | ⟨1, _⟩ => rfl)

/-- … and the right factor at `(k, b)`. -/
theorem ridx_v15 (a : Fin 100000) (b k : Fin 128) : ridx_main_v15 (ix2 a b) k = ix2 k b :=
  funext fun d => Fin.ext (by match d with | ⟨0, _⟩ => rfl | ⟨1, _⟩ => rfl)

/-- Row `a` of `(u · W_outᵀ) · A` is row `a` of `u · W_outᵀ` times `A`: entry `b` is `∑ k, (u · W_outᵀ) a k * A k b`. -/
theorem row_v15 (a : Fin 100000) :
    mat (val_main_v15 (F := Ideal) x0 x1 x2 x3 x4 x5) a
      = rowMul (mat (val_main_v14 (F := Ideal) x0 x1 x2 x3 x4 x5) a) (mat x1) := by
  funext b
  show val_main_v15 (F := Ideal) x0 x1 x2 x3 x4 x5 (ix2 a b)
    = ∑ k : Fin 128, val_main_v14 (F := Ideal) x0 x1 x2 x3 x4 x5 (ix2 a k) * x1 (ix2 k b)
  rw [val_main_v15_apply]
  refine Finset.sum_congr rfl fun k _ => ?_
  rw [lidx_v15, ridx_v15]

/-! ## The whole chain -/

/-- Row `a` after the three hidden layers is `hidden` of row `a` of `h`: the three `reluLayer`s, innermost first. -/
theorem row_hidden (a : Fin 100000) :
    mat (val_main_v12 (F := Ideal) x0 x1 x2 x3 x4) a
      = hidden (mat x1) (mat x2) (mat x3) (mat x4) (mat (val_main_v0 (F := Ideal) x0) a) := by
  rw [layer3, layer2, layer1]
  rfl

/-- Row `a` of the reference's result is `chainRef` of row `a` of `h`: the hidden layers, then `· W_outᵀ`, then `· A`. -/
theorem row_chain (a : Fin 100000) :
    mat (val_main_v15 (F := Ideal) x0 x1 x2 x3 x4 x5) a
      = chainRef (mat x1) (mat x2) (mat x3) (mat x4) (mat x5) (mat (val_main_v0 (F := Ideal) x0) a) := by
  rw [row_v15, row_v14, row_hidden]
  rfl

/-- THE RESULT: the reference's result array is the specification's `arrRef` of the adjacency `A = x1`, the weights
    `W_in = x2`, `W_h1 = x3`, `W_h2 = x4`, `W_out = x5` and the reshaped activations `h`. An index `i` is the pair of its
    coordinates, so the entry at `i` is entry `i 1` of row `i 0`, and that row is `chainRef` of row `i 0` of `h`. -/
theorem ref_is_chain (x0 : (⟨S1x100000x128, .f32⟩ : BufTy).Contents (Elt Ideal))
    (x1 x2 x3 x4 x5 : (⟨S128x128, .f32⟩ : BufTy).Contents (Elt Ideal)) :
    val_main_v15 (F := Ideal) x0 x1 x2 x3 x4 x5
      = Cert.GcnSpec.arrRef x1 x2 x3 x4 x5 (val_main_v0 (F := Ideal) x0) := by
  funext i
  calc val_main_v15 (F := Ideal) x0 x1 x2 x3 x4 x5 i
      = val_main_v15 (F := Ideal) x0 x1 x2 x3 x4 x5 (ix2 (i 0 : Fin 100000) (i 1 : Fin 128)) :=
        congrArg (val_main_v15 (F := Ideal) x0 x1 x2 x3 x4 x5) (eq_ix2 i)
    _ = chainRef (mat x1) (mat x2) (mat x3) (mat x4) (mat x5)
          (mat (val_main_v0 (F := Ideal) x0) (i 0 : Fin 100000)) (i 1 : Fin 128) :=
        congrFun (row_chain x0 x1 x2 x3 x4 x5 (i 0 : Fin 100000)) (i 1 : Fin 128)

end Cert.RefChain

end
-- ==== Proof.Carried.lean ====
/-
  What the body leaves at each grid point, and the matrix it carries between points.

  The body runs in two cases. At the first point it forms `W_outᵀ · A` from the `W_out` and `A` blocks, stores it into
  the scratch, reads it back, and stores the output block computed with it. At every later point it stores nothing into
  the scratch and computes the output block with what it finds there. The five 128 × 128 operands are staged whole at
  every point (their block index never moves), so the matrix stored at the first point is a function of the whole
  `W_out` and `A` arrays alone. This module reads the two cases' stored values and names that matrix; the induction
  over the grid points is the next module's.
-/
import proofs.«168859_g58128087384148_cont_9to1_m_400_15_alg».proof.Proof.Gen.KernelIdeal.Frame
import Idealize.ShloMosaic.Lib.Pipeline.Value
import Idealize.ShloMosaic.Lib.Tactic

noncomputable section

namespace Cert.KernelIdeal.Carried

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The loads and stores of the body go through the whole staging buffers: offset zero on both axes. -/
theorem hz : (![0, 0] : Fin 2 → Nat) = fun _ => 0 := funext fun a => by fin_cases a <;> rfl

/-! ## What each case leaves -/

/-- A LATER POINT: with the scratch holding `M`, the output block is the one store's value — the three hidden layers of
    the row block `x0` against `A = x1`, `W_in = x2`, `W_h1 = x3`, `W_h2 = x4`, times `M`. -/
theorem later_block (c : Dev nD) (i : grid0.Coords) (a1 : Memref sig .tc .vmem S10000x128 .f32) (h1 : a1.IsWhole) (a2 : Memref sig .tc .vmem S128x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S10000x128 .f32) (h7 : a7.IsWhole) (a8 : Memref sig .tc .vmem S128x128 .f32) (h8 : a8.IsWhole) (hc : ¬cond0_0 i) (x0 : Vec F S10000x128 .f32) (x1 x2 x3 x4 x5 : Vec F S128x128 .f32) (M : Vec F S128x128 .f32) :
    out0_B_6 c i a1 h1 a2 h2 a3 h3 a4 h4 a5 h5 a6 h6 a7 h7 a8 h8 hc x0 x1 x2 x3 x4 x5 M = k0_pay2 x1 x0 x2 x3 x4 M := by
  unfold out0_B_6
  rw [View.read_writes_eq_canon _ _ _ (cover0_B_6 c i a1 h1 a2 h2 a3 h3 a4 h4 a5 h5 a6 h6 a7 h7 a8 h8 hc x0 x1 x2 x3 x4 x5 M)]
  unfold kernelRun0_B
  dsimp only
  rw [View.canon_unit_zero hz]
  simp only [View.readAt_eq_ld, h1.read_unread, h2.read_unread, h3.read_unread, h4.read_unread, h5.read_unread, h8.read_unread,
    View.ld_unit_zero (S := S10000x128) hz, View.ld_unit_zero (S := S128x128) hz]

/-- THE FIRST POINT leaves in the scratch the product it formed from the `W_out` block `x5` and the `A` block `x1`, -/
theorem first_scratch (c : Dev nD) (i : grid0.Coords) (a1 : Memref sig .tc .vmem S10000x128 .f32) (h1 : a1.IsWhole) (a2 : Memref sig .tc .vmem S128x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S10000x128 .f32) (h7 : a7.IsWhole) (a8 : Memref sig .tc .vmem S128x128 .f32) (h8 : a8.IsWhole) (hc : cond0_0 i) (x0 : Vec F S10000x128 .f32) (x1 x2 x3 x4 x5 : Vec F S128x128 .f32) :
    sout0_A_0 c i a1 h1 a2 h2 a3 h3 a4 h4 a5 h5 a6 h6 a7 h7 a8 h8 hc x0 x1 x2 x3 x4 x5 = k0_pay1 x5 x1 := by
  unfold sout0_A_0
  rw [View.read_writes_eq_canon _ _ _ (scover0_A_0 c i a1 h1 a2 h2 a3 h3 a4 h4 a5 h5 a6 h6 a7 h7 a8 h8 hc x0 x1 x2 x3 x4 x5)]
  unfold kernelRun0_A
  dsimp only
  sl_unfold_words
  rw [View.canon_unit_zero hz]
  simp only [View.readAt_eq_ld, h2.read_unread, h6.read_unread, View.ld_unit_zero (S := S128x128) hz]

/-- … and its output block is computed with that product, read back from the scratch it was just stored into. -/
theorem first_block (c : Dev nD) (i : grid0.Coords) (a1 : Memref sig .tc .vmem S10000x128 .f32) (h1 : a1.IsWhole) (a2 : Memref sig .tc .vmem S128x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S10000x128 .f32) (h7 : a7.IsWhole) (a8 : Memref sig .tc .vmem S128x128 .f32) (h8 : a8.IsWhole) (hc : cond0_0 i) (x0 : Vec F S10000x128 .f32) (x1 x2 x3 x4 x5 : Vec F S128x128 .f32) :
    out0_A_6 c i a1 h1 a2 h2 a3 h3 a4 h4 a5 h5 a6 h6 a7 h7 a8 h8 hc x0 x1 x2 x3 x4 x5 = k0_pay2 x1 x0 x2 x3 x4 (k0_pay1 x5 x1) := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_unit_zero hz, View.readCov_unit_zero (S := S128x128) _ hz]
  simp only [View.readAt_eq_ld, h1.read_unread, h2.read_unread, h3.read_unread, h4.read_unread, h5.read_unread, h6.read_unread,
    View.ld_unit_zero (S := S10000x128) hz, View.ld_unit_zero (S := S128x128) hz]

/-! ## The 128 × 128 operands are staged whole -/

/-- The block index of each of the five 128 × 128 windows is (0, 0) at every grid point (decided over the grid). -/
theorem idx_fixed : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) ∧ True :=
  (by decide +kernel : ∀ t : Fin grid0.N, _)

/-- So the block of the adjacency `A` at any point is the whole array, -/
theorem iblk_1 (c : Dev nD) (t : Fin cfg0.N) : (iblk m c 1 t : Vec F S128x128 .f32) = V m c main_arg1 := by
  have e0 := (idx_fixed t).1.1
  have e1 := (idx_fixed t).1.2
  funext j
  unfold iblk
  rw [View.read_apply]
  show V m c main_arg1 _ = V m c main_arg1 j
  congr 1
  funext a
  apply Fin.ext
  match a with
  | ⟨0, _⟩ => show win0_1.index t 0 * 128 + 1 * (j 0).val = (j 0).val; rw [e0]; omega
  | ⟨1, _⟩ => show win0_1.index t 1 * 128 + 1 * (j 1).val = (j 1).val; rw [e1]; omega

/-- the block of `W_in` likewise, -/
theorem iblk_2 (c : Dev nD) (t : Fin cfg0.N) : (iblk m c 2 t : Vec F S128x128 .f32) = V m c main_arg2 := by
  have e0 := (idx_fixed t).2.1.1
  have e1 := (idx_fixed t).2.1.2
  funext j
  unfold iblk
  rw [View.read_apply]
  show V m c main_arg2 _ = V m c main_arg2 j
  congr 1
  funext a
  apply Fin.ext
  match a with
  | ⟨0, _⟩ => show win0_2.index t 0 * 128 + 1 * (j 0).val = (j 0).val; rw [e0]; omega
  | ⟨1, _⟩ => show win0_2.index t 1 * 128 + 1 * (j 1).val = (j 1).val; rw [e1]; omega

/-- of `W_h1`, -/
theorem iblk_3 (c : Dev nD) (t : Fin cfg0.N) : (iblk m c 3 t : Vec F S128x128 .f32) = V m c main_arg3 := by
  have e0 := (idx_fixed t).2.2.1.1
  have e1 := (idx_fixed t).2.2.1.2
  funext j
  unfold iblk
  rw [View.read_apply]
  show V m c main_arg3 _ = V m c main_arg3 j
  congr 1
  funext a
  apply Fin.ext
  match a with
  | ⟨0, _⟩ => show win0_3.index t 0 * 128 + 1 * (j 0).val = (j 0).val; rw [e0]; omega
  | ⟨1, _⟩ => show win0_3.index t 1 * 128 + 1 * (j 1).val = (j 1).val; rw [e1]; omega

/-- of `W_h2`, -/
theorem iblk_4 (c : Dev nD) (t : Fin cfg0.N) : (iblk m c 4 t : Vec F S128x128 .f32) = V m c main_arg4 := by
  have e0 := (idx_fixed t).2.2.2.1.1
  have e1 := (idx_fixed t).2.2.2.1.2
  funext j
  unfold iblk
  rw [View.read_apply]
  show V m c main_arg4 _ = V m c main_arg4 j
  congr 1
  funext a
  apply Fin.ext
  match a with
  | ⟨0, _⟩ => show win0_4.index t 0 * 128 + 1 * (j 0).val = (j 0).val; rw [e0]; omega
  | ⟨1, _⟩ => show win0_4.index t 1 * 128 + 1 * (j 1).val = (j 1).val; rw [e1]; omega

/-- and of `W_out`. -/
theorem iblk_5 (c : Dev nD) (t : Fin cfg0.N) : (iblk m c 5 t : Vec F S128x128 .f32) = V m c main_arg5 := by
  have e0 := (idx_fixed t).2.2.2.2.1.1
  have e1 := (idx_fixed t).2.2.2.2.1.2
  funext j
  unfold iblk
  rw [View.read_apply]
  show V m c main_arg5 _ = V m c main_arg5 j
  congr 1
  funext a
  apply Fin.ext
  match a with
  | ⟨0, _⟩ => show win0_5.index t 0 * 128 + 1 * (j 0).val = (j 0).val; rw [e0]; omega
  | ⟨1, _⟩ => show win0_5.index t 1 * 128 + 1 * (j 1).val = (j 1).val; rw [e1]; omega

/-! ## The carried matrix -/

/-- The matrix formed at the first point, of the whole `W_out` and `A` arrays as the region finds them. -/
def carriedM (c : Dev nD) : Vec F S128x128 .f32 :=
  k0_pay1 (V m c main_arg5 : Vec F S128x128 .f32) (V m c main_arg1 : Vec F S128x128 .f32)

end Cert.KernelIdeal.Carried

end
-- ==== Proof.EveryPoint.lean ====
/-
  After every grid point the scratch holds the matrix formed at the first point.

  By induction on the point: the first point stores `W_outᵀ · A` of its (whole) `W_out` and `A` blocks; a later
  point stores nothing into the scratch, so it leaves what the point before left. Hence every point, the first
  included, computes its output block with the same matrix, and the block is one function of the point's own row
  block of the activations and of the whole operand arrays.
-/
import proofs.«168859_g58128087384148_cont_9to1_m_400_15_alg».proof.Proof.Carried

noncomputable section

namespace Cert.KernelIdeal.Carried

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- THE FIRST POINT leaves that matrix in the scratch: it stores the product of its `W_out` and `A` blocks, which are
    the whole arrays. -/
theorem scratch_first (c : Dev nD) (h : 0 < cfg0.N) : (outsAt0 m c 0 h).2 = carriedM m c := by
  rw [outsAt0_A m c ⟨0, h⟩ rfl]
  dsimp only
  refine (first_scratch c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩)).trans ?_
  unfold carriedM
  rw [iblk_5 m c ⟨0, h⟩, iblk_1 m c ⟨0, h⟩]

/-- A LATER POINT leaves the scratch as the point before left it. -/
theorem scratch_later (c : Dev nD) (n : ℕ) (h : n + 1 < cfg0.N) :
    (outsAt0 m c (n + 1) h).2 = (outsAt0 m c n (Nat.lt_of_succ_lt h)).2 := by
  have hN : cfg0.N = 10 := N_0
  have hB : ¬(⟨n + 1, h⟩ : Fin cfg0.N).val % 10 = 0 := by dsimp only; omega
  rw [outsAt0_B m c ⟨n + 1, h⟩ hB]
  rfl

/-- AFTER EVERY POINT the scratch holds that matrix. By induction on the point. -/
theorem scratch_eq (c : Dev nD) (n : ℕ) : ∀ h : n < cfg0.N, (outsAt0 m c n h).2 = carriedM m c := by
  induction n with
  | zero => exact fun h => scratch_first m c h
  | succ n ih => exact fun h => (scratch_later m c n h).trans (ih _)

/-- EVERY POINT's output block: the body's one function of the point's row block of the activations, the whole
    operand arrays and the carried matrix. -/
theorem block_eq (c : Dev nD) (t : Fin cfg0.N) :
    (outsAt0 m c t.val t.isLt).1
      = k0_pay2 (V m c main_arg1 : Vec F S128x128 .f32) (iblk m c 0 t : Vec F S10000x128 .f32)
          (V m c main_arg2 : Vec F S128x128 .f32) (V m c main_arg3 : Vec F S128x128 .f32)
          (V m c main_arg4 : Vec F S128x128 .f32) (carriedM m c) := by
  by_cases h0 : t.val % 10 = 0
  · rw [outsAt0_A m c t h0]
    dsimp only
    refine (first_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)).trans ?_
    unfold carriedM
    rw [iblk_1 m c t, iblk_2 m c t, iblk_3 m c t, iblk_4 m c t, iblk_5 m c t]
  · rw [outsAt0_B m c t h0]
    dsimp only
    refine (later_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) _).trans ?_
    have hpos : t.val - 1 < cfg0.N := Nat.lt_of_le_of_lt (Nat.sub_le _ _) t.isLt
    rw [scratch_eq m c (t.val - 1) hpos, iblk_1 m c t, iblk_2 m c t, iblk_3 m c t, iblk_4 m c t]

end Cert.KernelIdeal.Carried

end
-- ==== Proof.BodyRows.lean ====
/-
  The kernel body's two stored values, read at an index, over the extended reals.

  At the first grid point the body stores `W_outᵀ · A` into its scratch: a matrix product contracting the FIRST axis of
  both operands, so entry `(a, b)` is `∑ k, W_out (k, a) * A (k, b)`. At every point it stores, into the output block,
  the point's row block `x` pushed through three layers `relu ((· Wᵀ) · A)` and then multiplied by the matrix `M` it
  reads back from the scratch. A product `X · Wᵀ` contracts the SECOND axis of both operands, `X · A` the second axis of
  the left with the first of the right; each, read at `(p, q)`, is a sum over the one contracted coordinate, and it
  takes of `X` only row `p`. So entry `(p, q)` of the block stored is row `p` of `x` through the chain's hidden layers,
  times `M`, at `q` — whatever the other rows of the block hold.
-/
import proofs.«168859_g58128087384148_cont_9to1_m_400_15_alg».proof.Proof.Gen.KernelIdeal.Skeleton
import proofs.«168859_g58128087384148_cont_9to1_m_400_15_alg».proof.Proof.GcnSpec
import Idealize.ShloMosaic.PureOps.Ideal.Laws
import Idealize.ShloMosaic.Lib.ValueIdx
import Idealize.ShloMosaic.Lib.Pipeline.Value

noncomputable section

namespace Cert.KernelIdeal.BodyRows

open Cert.KernelIdeal Cert.KernelIdeal.Gen Idealize.ShloMosaic Idealize.ShloMosaic.ValueIdx Cert.GcnSpec

/-! ## The operand indices of the three contractions -/

/-! Coordinate by coordinate: a kept axis of an operand reads the result's index, the contracted axis the contraction's
    one coordinate. -/

/-- `X · Wᵀ` (both second axes contracted): the left operand's row is the result's row, -/
theorem lhsT_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl

/-- its column the contracted coordinate; -/
theorem lhsT_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q

/-- the right operand's row is the result's column (the weight is stored [out, in]), -/
theorem rhsT_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl

/-- its column the contracted coordinate. -/
theorem rhsT_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- `X · A` (second axis of the left with the first of the right): the left operand's row is the result's row, -/
theorem lhsM_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- its column the contracted coordinate; -/
theorem lhsM_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

/-- the right operand's row is the contracted coordinate, -/
theorem rhsM_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

/-- its column the result's column. -/
theorem rhsM_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- `Wᵀ · A` (both first axes contracted): the left operand's row is the contracted coordinate, -/
theorem lhsF_0 (i : S128x128.Idx) (q : dot_S128x128_S128x128_S128x128_0_0_1_1_n_n.contr.Idx) :
    (dot_S128x128_S128x128_S128x128_0_0_1_1_n_n.lhsIdx i q 0).val = (q ⟨0, by decide⟩).val :=
  dot_S128x128_S128x128_S128x128_0_0_1_1_n_n.lhsIdx_val_of_single rfl i q

/-- its column the result's row; -/
theorem lhsF_1 (i : S128x128.Idx) (q : dot_S128x128_S128x128_S128x128_0_0_1_1_n_n.contr.Idx) :
    (dot_S128x128_S128x128_S128x128_0_0_1_1_n_n.lhsIdx i q 1).val = (i 0).val := by
  unfold DotDims.lhsIdx
  rw [dif_neg (show ¬(1 : Fin S128x128.rank) ∈ dot_S128x128_S128x128_S128x128_0_0_1_1_n_n.lhsBatch by decide), dif_pos (show (1 : Fin S128x128.rank) ∈ dot_S128x128_S128x128_S128x128_0_0_1_1_n_n.lhsNonContracting by decide)]
  rfl

/-- the right operand's row is the contracted coordinate, -/
theorem rhsF_0 (i : S128x128.Idx) (q : dot_S128x128_S128x128_S128x128_0_0_1_1_n_n.contr.Idx) :
    (dot_S128x128_S128x128_S128x128_0_0_1_1_n_n.rhsIdx i q 0).val = (q ⟨0, by decide⟩).val :=
  dot_S128x128_S128x128_S128x128_0_0_1_1_n_n.rhsIdx_val_of_single rfl i q

/-- its column the result's column. -/
theorem rhsF_1 (i : S128x128.Idx) (q : dot_S128x128_S128x128_S128x128_0_0_1_1_n_n.contr.Idx) :
    (dot_S128x128_S128x128_S128x128_0_0_1_1_n_n.rhsIdx i q 1).val = (i 1).val := by
  unfold DotDims.rhsIdx
  rw [dif_neg (show ¬(1 : Fin S128x128.rank) ∈ dot_S128x128_S128x128_S128x128_0_0_1_1_n_n.rhsBatch by decide), dif_pos (show (1 : Fin S128x128.rank) ∈ dot_S128x128_S128x128_S128x128_0_0_1_1_n_n.rhsNonContracting by decide)]
  rfl

/-! The same as whole indices, with the contraction's coordinate a `Fin 128`. -/

/-- `X · Wᵀ` reads `X` at (row, `k`) -/
theorem lhsT_idx (p : Fin 10000) (j : Fin 128) (k : Fin 128) :
    dot_S10000x128_S128x128_S10000x128_1_1_0_0_n_n.lhsIdx (ix2 p j) ((contrEquiv1 dot_S10000x128_S128x128_S10000x128_1_1_0_0_n_n 128 rfl rfl).symm k) = ix2 p k :=
  funext fun d => Fin.ext (by
    have hk := contrEquiv1_symm_val dot_S10000x128_S128x128_S10000x128_1_1_0_0_n_n 128 rfl rfl k
    match d with
    | ⟨0, _⟩ => exact lhsT_0 _ _
    | ⟨1, _⟩ => exact (lhsT_1 _ _).trans hk)

/-- and `W` at (column, `k`). -/
theorem rhsT_idx (p : Fin 10000) (j : Fin 128) (k : Fin 128) :
    dot_S10000x128_S128x128_S10000x128_1_1_0_0_n_n.rhsIdx (ix2 p j) ((contrEquiv1 dot_S10000x128_S128x128_S10000x128_1_1_0_0_n_n 128 rfl rfl).symm k) = ix2 j k :=
  funext fun d => Fin.ext (by
    have hk := contrEquiv1_symm_val dot_S10000x128_S128x128_S10000x128_1_1_0_0_n_n 128 rfl rfl k
    match d with
    | ⟨0, _⟩ => exact rhsT_0 _ _
    | ⟨1, _⟩ => exact (rhsT_1 _ _).trans hk)

/-- `X · A` reads `X` at (row, `k`) -/
theorem lhsM_idx (p : Fin 10000) (c : Fin 128) (k : Fin 128) :
    dot_S10000x128_S128x128_S10000x128_1_0_0_1_n_n.lhsIdx (ix2 p c) ((contrEquiv1 dot_S10000x128_S128x128_S10000x128_1_0_0_1_n_n 128 rfl rfl).symm k) = ix2 p k :=
  funext fun d => Fin.ext (by
    have hk := contrEquiv1_symm_val dot_S10000x128_S128x128_S10000x128_1_0_0_1_n_n 128 rfl rfl k
    match d with
    | ⟨0, _⟩ => exact lhsM_0 _ _
    | ⟨1, _⟩ => exact (lhsM_1 _ _).trans hk)

/-- and `A` at (`k`, column). -/
theorem rhsM_idx (p : Fin 10000) (c : Fin 128) (k : Fin 128) :
    dot_S10000x128_S128x128_S10000x128_1_0_0_1_n_n.rhsIdx (ix2 p c) ((contrEquiv1 dot_S10000x128_S128x128_S10000x128_1_0_0_1_n_n 128 rfl rfl).symm k) = ix2 k c :=
  funext fun d => Fin.ext (by
    have hk := contrEquiv1_symm_val dot_S10000x128_S128x128_S10000x128_1_0_0_1_n_n 128 rfl rfl k
    match d with
    | ⟨0, _⟩ => exact (rhsM_0 _ _).trans hk
    | ⟨1, _⟩ => exact rhsM_1 _ _)

/-- `Wᵀ · A` reads `W` at (`k`, row) -/
theorem lhsF_idx (a b : Fin 128) (k : Fin 128) :
    dot_S128x128_S128x128_S128x128_0_0_1_1_n_n.lhsIdx (ix2 a b) ((contrEquiv1 dot_S128x128_S128x128_S128x128_0_0_1_1_n_n 128 rfl rfl).symm k) = ix2 k a :=
  funext fun d => Fin.ext (by
    have hk := contrEquiv1_symm_val dot_S128x128_S128x128_S128x128_0_0_1_1_n_n 128 rfl rfl k
    match d with
    | ⟨0, _⟩ => exact (lhsF_0 _ _).trans hk
    | ⟨1, _⟩ => exact lhsF_1 _ _)

/-- and `A` at (`k`, column). -/
theorem rhsF_idx (a b : Fin 128) (k : Fin 128) :
    dot_S128x128_S128x128_S128x128_0_0_1_1_n_n.rhsIdx (ix2 a b) ((contrEquiv1 dot_S128x128_S128x128_S128x128_0_0_1_1_n_n 128 rfl rfl).symm k) = ix2 k b :=
  funext fun d => Fin.ext (by
    have hk := contrEquiv1_symm_val dot_S128x128_S128x128_S128x128_0_0_1_1_n_n 128 rfl rfl k
    match d with
    | ⟨0, _⟩ => exact (rhsF_0 _ _).trans hk
    | ⟨1, _⟩ => exact rhsF_1 _ _)

/-! ## The three products at an index -/

/-- `(X · Wᵀ) (p, j) = ∑ k, X (p, k) * W (j, k)`. -/
theorem matmulT_apply (X : FVec Ideal S10000x128 .f32) (W : FVec Ideal S128x128 .f32) (p : Fin 10000) (j : Fin 128) :
    matmul dot_S10000x128_S128x128_S10000x128_1_1_0_0_n_n none X W (constant (F := Ideal) S10000x128 .f32 0x00000000#32) (ix2 p j)
      = ∑ k : Fin 128, X (ix2 p k) * W (ix2 j k) := by
  simp only [matmul]
  rw [Ideal.matmul_constant_zero_apply,
    ← Equiv.sum_comp (contrEquiv1 dot_S10000x128_S128x128_S10000x128_1_1_0_0_n_n 128 rfl rfl).symm]
  exact Finset.sum_congr rfl fun k _ => by rw [lhsT_idx, rhsT_idx]

/-- `(X · A) (p, c) = ∑ k, X (p, k) * A (k, c)`. -/
theorem matmulM_apply (X : FVec Ideal S10000x128 .f32) (A : FVec Ideal S128x128 .f32) (p : Fin 10000) (c : Fin 128) :
    matmul dot_S10000x128_S128x128_S10000x128_1_0_0_1_n_n none X A (constant (F := Ideal) S10000x128 .f32 0x00000000#32) (ix2 p c)
      = ∑ k : Fin 128, X (ix2 p k) * A (ix2 k c) := by
  simp only [matmul]
  rw [Ideal.matmul_constant_zero_apply,
    ← Equiv.sum_comp (contrEquiv1 dot_S10000x128_S128x128_S10000x128_1_0_0_1_n_n 128 rfl rfl).symm]
  exact Finset.sum_congr rfl fun k _ => by rw [lhsM_idx, rhsM_idx]

/-- `(Wᵀ · A) (a, b) = ∑ k, W (k, a) * A (k, b)`. -/
theorem matmulF_apply (W A : FVec Ideal S128x128 .f32) (a b : Fin 128) :
    matmul dot_S128x128_S128x128_S128x128_0_0_1_1_n_n none W A (constant (F := Ideal) S128x128 .f32 0x00000000#32) (ix2 a b)
      = ∑ k : Fin 128, W (ix2 k a) * A (ix2 k b) := by
  simp only [matmul]
  rw [Ideal.matmul_constant_zero_apply,
    ← Equiv.sum_comp (contrEquiv1 dot_S128x128_S128x128_S128x128_0_0_1_1_n_n 128 rfl rfl).symm]
  exact Finset.sum_congr rfl fun k _ => by rw [lhsF_idx, rhsF_idx]

/-! ## The two stored values -/

/-- The relu's zero is the extended real `0`. -/
theorem relu_zero : (Scalar.ofBits (F := Ideal) .f32 0x00000000#32 : EReal) = 0 := Ideal.ofBits_zero_f32

/-- What the first point stores into the scratch is `W_outᵀ · A`, entry by entry. -/
theorem fold_apply (Wout A : Vec Ideal S128x128 .f32) (a b : Fin 128) :
    k0_pay1 (F := Ideal) Wout A (ix2 a b) = folded (mat Wout) (mat A) a b := by
  unfold k0_pay1
  simp only [shapeCast_self, matmulF_apply]
  rfl

/-- What every point stores into its output block: at `(p, q)`, row `p` of the point's input block through the three hidden
    layers, times the matrix `M` read from the scratch, at `q`. -/
theorem block_apply (A : Vec Ideal S128x128 .f32) (x : Vec Ideal S10000x128 .f32) (Win W1 W2 M : Vec Ideal S128x128 .f32)
    (p : Fin 10000) (q : Fin 128) :
    k0_pay2 (F := Ideal) A x Win W1 W2 M (ix2 p q)
      = rowMul (hidden (mat A) (mat Win) (mat W1) (mat W2) (mat x p)) (mat M) q := by
  unfold k0_pay2
  simp only [shapeCast_self, matmulM_apply, matmulT_apply, maximumf_apply, broadcast_apply, relu_zero]
  rfl

end Cert.KernelIdeal.BodyRows

end
-- ==== Proof.WholeArray.lean ====
/-
  From the ten blocks to the whole result array.

  Grid point `t` writes back block `t` of the result: rows `10000 t … 10000 t + 9999`, all 128 columns. What it
  writes at `(p, q)` of the block is row `p` of ITS row block of the activations — row `10000 t + p` of the
  activation array — through the chain as the kernel associates it, read at `q`: the entry of ONE whole-array function
  at row `10000 t + p`, column `q`. Every row of the array lies in exactly the block of the point `row / 10000`, so the
  ten blocks cover the array and it ends holding that function. The activation array the region finds is the host's
  reshape of the first argument.
-/
import proofs.«168859_g58128087384148_cont_9to1_m_400_15_alg».proof.Proof.Gen.KernelIdeal.Value
import proofs.«168859_g58128087384148_cont_9to1_m_400_15_alg».proof.Proof.Carried
import proofs.«168859_g58128087384148_cont_9to1_m_400_15_alg».proof.Proof.EveryPoint
import proofs.«168859_g58128087384148_cont_9to1_m_400_15_alg».proof.Proof.BodyRows
import proofs.«168859_g58128087384148_cont_9to1_m_400_15_alg».proof.Proof.GcnSpec
import Idealize.ShloMosaic.Lib.Pipeline.Value
import Idealize.ShloMosaic.Lib.ValueIdx
import Idealize.ShloMosaic.Lib.StableHlo.Run

noncomputable section

namespace Cert.KernelIdeal.WholeArray

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (m : (ℓ : Loc nD τ sig) → Buf (Elt Ideal) ℓ) (ρ : Dev nD → PrngReg)

/-- The result array as a function of the arrays the region finds: the adjacency, the four weights, and the reshaped
    activations. -/
def result (c : Dev nD) : S100000x128.Idx → EReal :=
  arrKer (V m c main_arg1 : S128x128.Idx → EReal) (V m c main_arg2 : S128x128.Idx → EReal)
    (V m c main_arg3 : S128x128.Idx → EReal) (V m c main_arg4 : S128x128.Idx → EReal)
    (V m c main_arg5 : S128x128.Idx → EReal) (V m c main_call0_v0 : S100000x128.Idx → EReal)

/-! ## Where a block sits -/

/-- The row-block windows (the activations in, the result out) are at block `(t, 0)` at grid point `t` (decided over the
    grid). -/
theorem idx_rows : ∀ t : Fin cfg0.N, win0_0.index t (0 : Fin 2) = t.val ∧ win0_0.index t (1 : Fin 2) = 0
    ∧ win0_6.index t (0 : Fin 2) = t.val ∧ win0_6.index t (1 : Fin 2) = 0 :=
  (by decide +kernel : ∀ t : Fin grid0.N, _)

/-- Row `p` of point `t`'s block is row `10000 t + p` of the array. -/
def rowOf (t : Fin cfg0.N) (p : Fin 10000) : Fin 100000 :=
  ⟨t.val * 10000 + p.val, by have h1 := t.isLt; have h2 : cfg0.N = 10 := N_0; have h3 := p.isLt; omega⟩

/-- An entry `(p, q)` of the output's block at point `t` is entry `(10000 t + p, q)` of the result array, -/
theorem emb_out (t : Fin cfg0.N) (p : Fin 10000) (q : Fin 128) :
    ((cfg0.win 6).blk t).view.emb (ix2 p q) = ix2 (rowOf t p) q := by
  obtain ⟨-, -, e0, e1⟩ := idx_rows t
  funext a
  apply Fin.ext
  match a with
  | ⟨0, _⟩ => show win0_6.index t (0 : Fin 2) * 10000 + 1 * p.val = t.val * 10000 + p.val; rw [e0]; omega
  | ⟨1, _⟩ => show win0_6.index t (1 : Fin 2) * 128 + 1 * q.val = q.val; rw [e1]; omega

/-- … and an entry `(p, k)` of the activations' block at point `t` is entry `(10000 t + p, k)` of the activation array. -/
theorem emb_in (t : Fin cfg0.N) (p : Fin 10000) (k : Fin 128) :
    ((cfg0.win 0).blk t).view.emb (ix2 p k) = ix2 (rowOf t p) k := by
  obtain ⟨e0, e1, -, -⟩ := idx_rows t
  funext a
  apply Fin.ext
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

/-- So row `p` of the block of activations staged at point `t` is row `10000 t + p` of the activation array. -/
theorem row_in (c : Dev nD) (t : Fin cfg0.N) (p : Fin 10000) :
    mat (iblk m c 0 t : S10000x128.Idx → EReal) p = mat (V m c main_call0_v0 : S100000x128.Idx → EReal) (rowOf t p) := by
  funext k
  show (iblk m c 0 t : S10000x128.Idx → EReal) (ix2 p k) = (V m c main_call0_v0 : S100000x128.Idx → EReal) (ix2 (rowOf t p) k)
  unfold iblk
  rw [View.read_apply]
  show V m c main_call0_v0 (((cfg0.win 0).blk t).view.emb (ix2 p k)) = V m c main_call0_v0 (ix2 (rowOf t p) k)
  rw [emb_in]

/-- The matrix carried in the scratch is `W_outᵀ · A` of the whole arrays, entry by entry. -/
theorem carried_mat (c : Dev nD) :
    mat (Carried.carriedM m c : S128x128.Idx → EReal)
      = folded (mat (V m c main_arg5 : S128x128.Idx → EReal)) (mat (V m c main_arg1 : S128x128.Idx → EReal)) :=
  funext fun a => funext fun b => BodyRows.fold_apply _ _ a b

/-! ## What a point writes back, and the cover -/

/-- WHAT POINT `t` WRITES BACK is block `t` of the result function. -/
theorem flushed_eq (c : Dev nD) (t : Fin cfg0.N) :
    (dats m 0 c).flushed 6 t = ((cfg0.win 6).blk t).view.read (Elt Ideal) (result m c) := by
  rw [Value.flushed6, Carried.block_eq]
  funext j
  obtain ⟨p, q, rfl⟩ : ∃ (p : Fin 10000) (q : Fin 128), j = ix2 p q := ⟨j 0, j 1, eq_ix2 j⟩
  rw [View.read_apply]
  show k0_pay2 (F := Ideal) _ _ _ _ _ _ (ix2 p q) = result m c (((cfg0.win 6).blk t).view.emb (ix2 p q))
  rw [BodyRows.block_apply, emb_out, carried_mat, row_in]
  rfl

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v0).slice (win0_6.rect t)).set ↔ _
  rw [View.set_slice_whole, Rect.mem_set_unit]
  exact Iff.rfl

/-- THE COVER: row `r` of the array is in the block of the point `r / 10000`, and every point writes back. -/
theorem cover (i : S100000x128.Idx) :
    ∃ t : Fin cfg0.N, (cfg0.win 6).flush t = true ∧ i ∈ ((cfg0.win 6).blk t).view.set := by
  have hN : cfg0.N = 10 := N_0
  have hi0 : (i 0).val < 100000 := (i 0).isLt
  have hi1 : (i 1).val < 128 := (i 1).isLt
  have ht : (i 0).val / 10000 < cfg0.N := by omega
  refine ⟨⟨(i 0).val / 10000, ht⟩, flush0_6 _, ?_⟩
  rw [mem_blk]
  obtain ⟨-, -, e0, e1⟩ := idx_rows ⟨(i 0).val / 10000, ht⟩
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    rw [e0]; dsimp only; omega
  | ⟨1, _⟩ =>
    show win0_6.index ⟨(i 0).val / 10000, ht⟩ (1 : Fin 2) * 128 ≤ (i 1).val
      ∧ (i 1).val < win0_6.index ⟨(i 0).val / 10000, ht⟩ (1 : Fin 2) * 128 + 128
    rw [e1]; omega

/-- THE ARRAY after the run is the result function. -/
theorem final (c : Dev nD) : (dats m 0 c).arrAt 6 cfg0.N = result m c :=
  (dats m 0 c).arrAt_eq_of_cover 6 (result m c) (fun t _ => flushed_eq m c t) cover

/-! ## The activations the region finds, and the run -/

/-- The activation array the region finds is the host's reshape of the first argument to 100000 × 128. -/
theorem reshaped (c : Dev nD) :
    (V m c main_call0_v0 : S100000x128.Idx → EReal)
      = shapeCast S100000x128 (m ((c : Thread nD τ).loc main_arg0)) shapeCasts_S1x100000x128_S100000x128 := by
  dsimp only [Gen.V, Gen.hostOps0]
  after_results
  rfl

/-- The result function over the ARGUMENT arrays as launched: no host operation writes them before the region. -/
theorem result_eq (c : Dev nD) :
    result m c = arrKer (m ((c : Thread nD τ).loc main_arg1)) (m ((c : Thread nD τ).loc main_arg2))
      (m ((c : Thread nD τ).loc main_arg3)) (m ((c : Thread nD τ).loc main_arg4)) (m ((c : Thread nD τ).loc main_arg5))
      (shapeCast S100000x128 (m ((c : Thread nD τ).loc main_arg0)) shapeCasts_S1x100000x128_S100000x128) := by
  unfold result
  rw [reshaped, V_main_arg1, V_main_arg2, V_main_arg3, V_main_arg4, V_main_arg5]

/-- THE RUN: every weakly fair execution terminates with the result array at the chain, kernel association, of the
    argument arrays, and the arguments unchanged. -/
theorem run : θ_run defs (onTc (τ := τ) (main (F := Ideal))) ⟨m, fun _ => 0, ρ⟩ fun r => ∀ c : Dev nD,
      r.2.mem ((c : Thread nD τ).loc main_v0)
        = arrKer (m ((c : Thread nD τ).loc main_arg1)) (m ((c : Thread nD τ).loc main_arg2))
            (m ((c : Thread nD τ).loc main_arg3)) (m ((c : Thread nD τ).loc main_arg4)) (m ((c : Thread nD τ).loc main_arg5))
            (shapeCast S100000x128 (m ((c : Thread nD τ).loc main_arg0)) shapeCasts_S1x100000x128_S100000x128)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (result_eq m c)), (h c).2⟩)
    (Value.run_blocks m ρ)

end Cert.KernelIdeal.WholeArray

end
-- ==== Proof.lean ====
/-
  The fused four-layer chain against its reference, over the extended reals.

  Both programs send the activations `x`, reshaped to 100000 rows of 128 features, row by row through three layers
  `h ↦ relu ((h · Wᵀ) · A)` (weights `W_in`, `W_h1`, `W_h2`, adjacency `A`) and a last layer without relu. The reference
  computes the last layer as `(h · W_outᵀ) · A`. The kernel walks the rows in ten blocks of 10000; at the first block
  it forms the 128 × 128 matrix `W_outᵀ · A` once and keeps it, and at every block it computes `h · (W_outᵀ · A)`.

  The proof has five parts. (1) The specification states both associations as functions of whole arrays and proves
  them equal when every entry is a real number — then each is the same double sum, by distributivity and exchanging the
  sums. (2) The reference's composed term is the first association, row by row. (3) The kernel body's stored values,
  read at an index, are the second association's row functions; the kept matrix is the same after every block, by
  induction on the block; and the ten blocks cover the result array, so it ends holding the second association of the
  argument arrays. (4) The precondition — every entry of every argument has absolute value below +∞ — says every entry
  is a real number. (5) Here the five claims are assembled: the kernel's two frames are the generated ones, the
  reference's frame is its run with the result dropped, the idealization rewrote nothing, and the two results are one
  array by (1), (2), (3) and (4).
-/
import proofs.«168859_g58128087384148_cont_9to1_m_400_15_alg».proof.Defs
import proofs.«168859_g58128087384148_cont_9to1_m_400_15_alg».proof.Proof.Gen.Kernel
import proofs.«168859_g58128087384148_cont_9to1_m_400_15_alg».proof.Proof.Gen.Kernel.Skeleton
import proofs.«168859_g58128087384148_cont_9to1_m_400_15_alg».proof.Proof.Gen.Kernel.Launch
import proofs.«168859_g58128087384148_cont_9to1_m_400_15_alg».proof.Proof.Gen.Kernel.Points
import proofs.«168859_g58128087384148_cont_9to1_m_400_15_alg».proof.Proof.Gen.Kernel.Frame
import proofs.«168859_g58128087384148_cont_9to1_m_400_15_alg».proof.Proof.Gen.KernelIdeal
import proofs.«168859_g58128087384148_cont_9to1_m_400_15_alg».proof.Proof.Gen.KernelIdeal.Skeleton
import proofs.«168859_g58128087384148_cont_9to1_m_400_15_alg».proof.Proof.Gen.KernelIdeal.Launch
import proofs.«168859_g58128087384148_cont_9to1_m_400_15_alg».proof.Proof.Gen.KernelIdeal.Points
import proofs.«168859_g58128087384148_cont_9to1_m_400_15_alg».proof.Proof.Gen.KernelIdeal.Frame
import proofs.«168859_g58128087384148_cont_9to1_m_400_15_alg».proof.Proof.Gen.ReferenceIdeal
import proofs.«168859_g58128087384148_cont_9to1_m_400_15_alg».proof.Proof.Gen.Pre_finite_inputs
import proofs.«168859_g58128087384148_cont_9to1_m_400_15_alg».proof.Proof.Gen.KernelIdeal.Value
import proofs.«168859_g58128087384148_cont_9to1_m_400_15_alg».proof.Proof.Gen.ReferenceIdeal.Run
import proofs.«168859_g58128087384148_cont_9to1_m_400_15_alg».proof.Proof.Gen.ReferenceIdeal.Read
import proofs.«168859_g58128087384148_cont_9to1_m_400_15_alg».proof.Proof.GcnSpec
import proofs.«168859_g58128087384148_cont_9to1_m_400_15_alg».proof.Proof.FiniteInputs
import proofs.«168859_g58128087384148_cont_9to1_m_400_15_alg».proof.Proof.RefIsChain
import proofs.«168859_g58128087384148_cont_9to1_m_400_15_alg».proof.Proof.WholeArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From memories that agree on the six arguments, all of real entries, both programs end with the same result array:
    the kernel's is the chain with the last layer associated `h · (W_outᵀ · A)`, the reference's the chain with it
    associated `(h · W_outᵀ) · A`, of the same arrays, and on real entries the two associations are one function. -/
theorem algebraic : Cert.algebraic_KernelIdeal_ReferenceIdeal := by
  intro m ρ m' ρ' hpre hagree
  refine ⟨fun c => Cert.GcnSpec.arrKer (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (shapeCast Cert.KernelIdeal.S100000x128 (m ((c.tc : Thread Cert.KernelIdeal.nD Cert.KernelIdeal.τ).loc Cert.KernelIdeal.main_arg0)) Cert.KernelIdeal.Gen.shapeCasts_S1x100000x128_S100000x128),
    Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  -- every entry of every argument is a real number
  obtain ⟨r0, r1, r2, r3, r4, r5⟩ := Cert.FiniteInputs.real_of_pre _ _ _ _ _ _ (hpre c)
  -- the reference's term is the first association of its own arguments, which are the kernel's
  rw [Cert.ReferenceIdeal.Read.val_main_v15_eq, Cert.RefChain.ref_is_chain,
    (hagree c).1, (hagree c).2.1, (hagree c).2.2.1, (hagree c).2.2.2.1, (hagree c).2.2.2.2.1, (hagree c).2.2.2.2.2]
  -- and a reshape only renames indices, so the reshaped activations are real too
  exact Cert.GcnSpec.arrRef_eq_arrKer r1 r2 r3 r4 r5
    (fun i => by rw [Cert.ReferenceIdeal.Read.val_main_v0_apply]; exact r0 _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
